-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16x8x32 : Shape := ⟨4, ![1024, 16, 8, 32]⟩
abbrev S1024x16x8x8 : Shape := ⟨4, ![1024, 16, 8, 8]⟩
abbrev S1024x4096 : Shape := ⟨2, ![1024, 4096]⟩
abbrev S_ : Shape := ⟨0, ![]⟩

class Facts : Prop where
  bcast_S_S1024x16x8x32 : S_.BroadcastsInDim S1024x16x8x32 (![] : Fin 0 → Fin S1024x16x8x32.rank)
  reducesTo_S1024x16x8x32_S_d0_1_2_3 : S1024x16x8x32.ReducesTo [0, 1, 2, 3] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S1024x16x8x32 .f32) (main_arg1 : FVec F S1024x16x8x32 .f32) (main_arg2 : FVec F S1024x16x8x32 .f32) (main_arg3 : IVec S1024x16x8x8 1) (main_arg4 : FVec F S1024x4096 .f32) : IVec S_ 1 :=
  let main_v0 : FVec F S1024x16x8x32 .f32 := Host.absf main_arg0
  let main_cst : FVec F S_ .f32 := constant S_ .f32 0x7F800000#32
  let main_v1 : FVec F S1024x16x8x32 .f32 := broadcastInDim S1024x16x8x32 ![] bcast_S_S1024x16x8x32 main_cst
  let main_v2 : IVec S1024x16x8x32 1 := cmpf .olt main_v0 main_v1
  let main_c : IVec S_ 1 := constantI S_ 1 1#1
  let main_v3 : IVec S_ 1 := (fun x v => Host.reduce IntOp.andi x v reducesTo_S1024x16x8x32_S_d0_1_2_3 h_S_) main_v2 main_c
  let main_v4 : FVec F S1024x16x8x32 .f32 := Host.absf main_arg1
  let main_cst_0 : FVec F S_ .f32 := constant S_ .f32 0x7F800000#32
  let main_v5 : FVec F S1024x16x8x32 .f32 := broadcastInDim S1024x16x8x32 ![] bcast_S_S1024x16x8x32 main_cst_0
  let main_v6 : IVec S1024x16x8x32 1 := cmpf .olt main_v4 main_v5
  let main_c_1 : IVec S_ 1 := constantI S_ 1 1#1
  let main_v7 : IVec S_ 1 := (fun x v => Host.reduce IntOp.andi x v reducesTo_S1024x16x8x32_S_d0_1_2_3 h_S_) main_v6 main_c_1
  let main_v8 : IVec S_ 1 := andi main_v3 main_v7
  let main_v9 : FVec F S1024x16x8x32 .f32 := Host.absf main_arg2
  let main_cst_2 : FVec F S_ .f32 := constant S_ .f32 0x7F800000#32
  let main_v10 : FVec F S1024x16x8x32 .f32 := broadcastInDim S1024x16x8x32 ![] bcast_S_S1024x16x8x32 main_cst_2
  let main_v11 : IVec S1024x16x8x32 1 := cmpf .olt main_v9 main_v10
  let main_c_3 : IVec S_ 1 := constantI S_ 1 1#1
  let main_v12 : IVec S_ 1 := (fun x v => Host.reduce IntOp.andi x v reducesTo_S1024x16x8x32_S_d0_1_2_3 h_S_) main_v11 main_c_3
  let main_v13 : IVec S_ 1 := andi main_v8 main_v12
  let main_v14 : FVec F S1024x4096 .f32 := Host.absf main_arg4
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Kernel.lean ====
abbrev S1024x16x8x32 : Shape := ⟨4, ![1024, 16, 8, 32]⟩
abbrev S1024x16x8x8 : Shape := ⟨4, ![1024, 16, 8, 8]⟩
abbrev S1024x4096 : Shape := ⟨2, ![1024, 4096]⟩
abbrev S16384x8x32 : Shape := ⟨3, ![16384, 8, 32]⟩
abbrev S16384x8x8 : Shape := ⟨3, ![16384, 8, 8]⟩
abbrev S512x8x32 : Shape := ⟨3, ![512, 8, 32]⟩
abbrev S512x8x8 : Shape := ⟨3, ![512, 8, 8]⟩
abbrev S512x8 : Shape := ⟨2, ![512, 8]⟩
abbrev S512x8x1 : Shape := ⟨3, ![512, 8, 1]⟩

abbrev nBuf : Space → Nat
  | .hbm => 16
  | .vmem => 14
  | .smem => 0
  | _ => 0

abbrev bufTy : (tb : Table) → Fin (tcTables nBuf tb) → BufTy
  | .hbm, ⟨0, _⟩ => ⟨S1024x16x8x32, .f32⟩
  | .hbm, ⟨1, _⟩ => ⟨S1024x16x8x32, .f32⟩
  | .hbm, ⟨2, _⟩ => ⟨S1024x16x8x32, .f32⟩
  | .hbm, ⟨3, _⟩ => ⟨S1024x16x8x8, .i1⟩
  | .hbm, ⟨4, _⟩ => ⟨S1024x4096, .f32⟩
  | .hbm, ⟨5, _⟩ => ⟨S16384x8x32, .f32⟩
  | .hbm, ⟨6, _⟩ => ⟨S16384x8x32, .f32⟩
  | .hbm, ⟨7, _⟩ => ⟨S16384x8x32, .f32⟩
  | .hbm, ⟨8, _⟩ => ⟨S16384x8x8, .i1⟩
  | .hbm, ⟨9, _⟩ => ⟨S16384x8x8, .i32⟩
  | .hbm, ⟨10, _⟩ => ⟨S1024x16x8x32, .f32⟩
  | .hbm, ⟨11, _⟩ => ⟨S16384x8x32, .f32⟩
  | .hbm, ⟨12, _⟩ => ⟨S16384x8x32, .f32⟩
  | .hbm, ⟨13, _⟩ => ⟨S16384x8x8, .f32⟩
  | .hbm, ⟨14, _⟩ => ⟨S1024x16x8x32, .f32⟩
  | .hbm, ⟨15, _⟩ => ⟨S1024x16x8x8, .f32⟩
  | .local _ .vmem, ⟨0, _⟩ => ⟨S512x8x32, .f32⟩
  | .local _ .vmem, ⟨1, _⟩ => ⟨S512x8x32, .f32⟩
  | .local _ .vmem, ⟨2, _⟩ => ⟨S512x8x32, .f32⟩
  | .local _ .vmem, ⟨3, _⟩ => ⟨S512x8x32, .f32⟩
  | .local _ .vmem, ⟨4, _⟩ => ⟨S512x8x32, .f32⟩
  | .local _ .vmem, ⟨5, _⟩ => ⟨S512x8x32, .f32⟩
  | .local _ .vmem, ⟨6, _⟩ => ⟨S512x8x8, .i32⟩
  | .local _ .vmem, ⟨7, _⟩ => ⟨S512x8x8, .i32⟩
  | .local _ .vmem, ⟨8, _⟩ => ⟨S512x8x32, .f32⟩
  | .local _ .vmem, ⟨9, _⟩ => ⟨S512x8x32, .f32⟩
  | .local _ .vmem, ⟨10, _⟩ => ⟨S512x8x32, .f32⟩
  | .local _ .vmem, ⟨11, _⟩ => ⟨S512x8x32, .f32⟩
  | .local _ .vmem, ⟨12, _⟩ => ⟨S512x8x8, .f32⟩
  | .local _ .vmem, ⟨13, _⟩ => ⟨S512x8x8, .f32⟩
  | _, _ => ⟨S1024x16x8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x8x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1024x16x8x32_S16384x8x32 : S1024x16x8x32.ShapeCasts S16384x8x32
  shapeCasts_S1024x16x8x8_S16384x8x8 : S1024x16x8x8.ShapeCasts S16384x8x8
  natLt_1_32 : 1 < 32
  shapeCasts_S1024x4096_S1024x16x8x32 : S1024x4096.ShapeCasts S1024x16x8x32
  inb_S512x8x32_S512x8x32_0_0_0 : ∀ a, (![0, 0, 0] : Fin 3 → Nat) a + S512x8x32.size a ≤ S512x8x32.size a
  h_S512x8x32 : 0 < S512x8x32.numel
  shapeCasts_S512x8x32_S512x8x32 : S512x8x32.ShapeCasts S512x8x32
  bitsLt_bf16_f32 : FTy.bits .bf16 < FTy.bits .f32
  inb_S512x8x8_S512x8x8_0_0_0 : ∀ a, (![0, 0, 0] : Fin 3 → Nat) a + S512x8x8.size a ≤ S512x8x8.size a
  h_S512x8x8 : 0 < S512x8x8.numel
  shapeCasts_S512x8x8_S512x8x8 : S512x8x8.ShapeCasts S512x8x8
  reduces_S512x8x8_S512x8 : S512x8x8.Reduces [2] S512x8
  shapeCasts_S512x8_S512x8x1 : S512x8.ShapeCasts S512x8x1
  broadcasts_S512x8x1_S512x8x8 : S512x8x1.Broadcasts S512x8x8
  shapeCasts_S16384x8x32_S1024x16x8x32 : S16384x8x32.ShapeCasts S1024x16x8x32
  shapeCasts_S16384x8x8_S1024x16x8x8 : S16384x8x8.ShapeCasts S1024x16x8x8
  dot_S512x8x32_S512x8x32_S512x8x8_2_2_1_1_0_0_wf : DotDims.WF S512x8x32 S512x8x32 S512x8x8 [2] [2] [1] [1] [0] [0]
  dot_S512x8x8_S512x8x32_S512x8x32_2_1_1_2_0_0_wf : DotDims.WF S512x8x8 S512x8x32 S512x8x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8x32.size a ≤ S16384x8x32.size a
  hwx0_0 : ∀ i : grid0.Coords, EltTy.bits .f32 = 32 ∨ (Rect.block (s := S16384x8x32) S512x8x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8x32.size a ≤ S16384x8x32.size a
  hwx0_1 : ∀ i : grid0.Coords, EltTy.bits .f32 = 32 ∨ (Rect.block (s := S16384x8x32) S512x8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8x32.size a ≤ S16384x8x32.size a
  hwx0_2 : ∀ i : grid0.Coords, EltTy.bits .f32 = 32 ∨ (Rect.block (s := S16384x8x32) S512x8x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8x8.size a ≤ S16384x8x8.size a
  hwx0_3 : ∀ i : grid0.Coords, EltTy.bits .i32 = 32 ∨ (Rect.block (s := S16384x8x8) S512x8x8.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x8x32.size a ≤ S16384x8x32.size a
  hwx0_4 : ∀ i : grid0.Coords, EltTy.bits .f32 = 32 ∨ (Rect.block (s := S16384x8x32) S512x8x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x8x32.size a ≤ S16384x8x32.size a
  hwx0_5 : ∀ i : grid0.Coords, EltTy.bits .f32 = 32 ∨ (Rect.block (s := S16384x8x32) S512x8x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x8x8.size a ≤ S16384x8x8.size a
  hwx0_6 : ∀ i : grid0.Coords, EltTy.bits .f32 = 32 ∨ (Rect.block (s := S16384x8x8) S512x8x8.size (cc0_transform_6 i) (hinb0_6 i)).WholeWords (EltTy.packing .f32)

variable [Facts₀]

def dot_S512x8x32_S512x8x32_S512x8x8_2_2_1_1_0_0 : DotDims S512x8x32 S512x8x32 S512x8x8 where
  lhsContracting := [2]
  rhsContracting := [2]
  lhsNonContracting := [1]
  rhsNonContracting := [1]
  lhsBatch := [0]
  rhsBatch := [0]
  wf := dot_S512x8x32_S512x8x32_S512x8x8_2_2_1_1_0_0_wf
def dot_S512x8x8_S512x8x32_S512x8x32_2_1_1_2_0_0 : DotDims S512x8x8 S512x8x32 S512x8x32 where
  lhsContracting := [2]
  rhsContracting := [1]
  lhsNonContracting := [1]
  rhsNonContracting := [2]
  lhsBatch := [0]
  rhsBatch := [0]
  wf := dot_S512x8x8_S512x8x32_S512x8x32_2_1_1_2_0_0_wf

abbrev win0_0 : Pipeline.Window sig grid0 :=
  Pipeline.Window.ofSpec (Memref.whole main_v0) S512x8x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x8x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x8x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x8x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S512x8x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S512x8x8.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x16x8x32 : Shape := ⟨4, ![1024, 16, 8, 32]⟩
abbrev S1024x16x8x8 : Shape := ⟨4, ![1024, 16, 8, 8]⟩
abbrev S1024x4096 : Shape := ⟨2, ![1024, 4096]⟩
abbrev S_ : Shape := ⟨0, ![]⟩
abbrev S1024x16x8 : Shape := ⟨3, ![1024, 16, 8]⟩
abbrev S1024x16x8x1 : Shape := ⟨4, ![1024, 16, 8, 1]⟩

abbrev nBuf : Space → Nat
  | .hbm => 29
  | .vmem => 0
  | .smem => 0
  | _ => 0

abbrev bufTy : (tb : Table) → Fin (tcTables nBuf tb) → BufTy
  | .hbm, ⟨0, _⟩ => ⟨S1024x16x8x32, .f32⟩
  | .hbm, ⟨1, _⟩ => ⟨S1024x16x8x32, .f32⟩
  | .hbm, ⟨2, _⟩ => ⟨S1024x16x8x32, .f32⟩
  | .hbm, ⟨3, _⟩ => ⟨S1024x16x8x8, .i1⟩
  | .hbm, ⟨4, _⟩ => ⟨S1024x4096, .f32⟩
  | .hbm, ⟨5, _⟩ => ⟨S1024x16x8x8, .f32⟩
  | .hbm, ⟨6, _⟩ => ⟨S_, .f32⟩
  | .hbm, ⟨7, _⟩ => ⟨S1024x16x8x8, .f32⟩
  | .hbm, ⟨8, _⟩ => ⟨S1024x16x8x8, .f32⟩
  | .hbm, ⟨9, _⟩ => ⟨S_, .f32⟩
  | .hbm, ⟨10, _⟩ => ⟨S1024x16x8x8, .f32⟩
  | .hbm, ⟨11, _⟩ => ⟨S1024x16x8x8, .f32⟩
  | .hbm, ⟨12, _⟩ => ⟨S_, .f32⟩
  | .hbm, ⟨13, _⟩ => ⟨S1024x16x8, .f32⟩
  | .hbm, ⟨14, _⟩ => ⟨S_, .f32⟩
  | .hbm, ⟨15, _⟩ => ⟨S1024x16x8, .f32⟩
  | .hbm, ⟨16, _⟩ => ⟨S1024x16x8, .f32⟩
  | .hbm, ⟨17, _⟩ => ⟨S1024x16x8x1, .f32⟩
  | .hbm, ⟨18, _⟩ => ⟨S1024x16x8x8, .f32⟩
  | .hbm, ⟨19, _⟩ => ⟨S1024x16x8x8, .f32⟩
  | .hbm, ⟨20, _⟩ => ⟨S1024x16x8x8, .f32⟩
  | .hbm, ⟨21, _⟩ => ⟨S_, .f32⟩
  | .hbm, ⟨22, _⟩ => ⟨S1024x16x8, .f32⟩
  | .hbm, ⟨23, _⟩ => ⟨S1024x16x8x1, .f32⟩
  | .hbm, ⟨24, _⟩ => ⟨S1024x16x8x8, .f32⟩
  | .hbm, ⟨25, _⟩ => ⟨S1024x16x8x8, .f32⟩
  | .hbm, ⟨26, _⟩ => ⟨S1024x16x8x32, .f32⟩
  | .hbm, ⟨27, _⟩ => ⟨S1024x16x8x32, .f32⟩
  | .hbm, ⟨28, _⟩ => ⟨S1024x16x8x32, .f32⟩
  | _, _ => ⟨S1024x16x8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S1024x16x8x8 : S_.BroadcastsInDim S1024x16x8x8 (![] : Fin 0 → Fin S1024x16x8x8.rank)
  reducesTo_S1024x16x8x8_S1024x16x8_d3 : S1024x16x8x8.ReducesTo [3] S1024x16x8
  h_S_ : 0 < S_.numel
  bcast_S_S1024x16x8 : S_.BroadcastsInDim S1024x16x8 (![] : Fin 0 → Fin S1024x16x8.rank)
  bcast_S1024x16x8_S1024x16x8x1_0_1_2 : S1024x16x8.BroadcastsInDim S1024x16x8x1 (![0, 1, 2] : Fin 3 → Fin S1024x16x8x1.rank)
  bcast_S1024x16x8x1_S1024x16x8x8_0_1_2_3 : S1024x16x8x1.BroadcastsInDim S1024x16x8x8 (![0, 1, 2, 3] : Fin 4 → Fin S1024x16x8x8.rank)
  shapeCasts_S1024x4096_S1024x16x8x32 : S1024x4096.ShapeCasts S1024x16x8x32
  dot_S1024x16x8x32_S1024x16x8x32_S1024x16x8x8_3_3_2_2_01_01_wf : DotDims.WF S1024x16x8x32 S1024x16x8x32 S1024x16x8x8 [3] [3] [2] [2] [0, 1] [0, 1]
  dot_S1024x16x8x8_S1024x16x8x32_S1024x16x8x32_3_2_2_3_01_01_wf : DotDims.WF S1024x16x8x8 S1024x16x8x32 S1024x16x8x32 [3] [2] [2] [3] [0, 1] [0, 1]

variable [Facts₀]

def dot_S1024x16x8x32_S1024x16x8x32_S1024x16x8x8_3_3_2_2_01_01 : DotDims S1024x16x8x32 S1024x16x8x32 S1024x16x8x8 where
  lhsContracting := [3]
  rhsContracting := [3]
  lhsNonContracting := [2]
  rhsNonContracting := [2]
  lhsBatch := [0, 1]
  rhsBatch := [0, 1]
  wf := dot_S1024x16x8x32_S1024x16x8x32_S1024x16x8x8_3_3_2_2_01_01_wf
def dot_S1024x16x8x8_S1024x16x8x32_S1024x16x8x32_3_2_2_3_01_01 : DotDims S1024x16x8x8 S1024x16x8x32 S1024x16x8x32 where
  lhsContracting := [3]
  rhsContracting := [2]
  lhsNonContracting := [2]
  rhsNonContracting := [3]
  lhsBatch := [0, 1]
  rhsBatch := [0, 1]
  wf := dot_S1024x16x8x8_S1024x16x8x32_S1024x16x8x32_3_2_2_3_01_01_wf

class Facts : Prop extends Facts₀ where

variable [Facts]
-- ==== Proof.Spec.lean ====
/-
  One attention problem on the extended reals: eight queries and eight keys of thirty-two features, a mask of
  eight by eight bits, eight value rows and a pointwise post-scale. Every one of the 16384 (batch, head) pairs is
  one such problem, and both programs compute it — one on blocks of 512 flattened pairs, the other on the
  four-dimensional arrays. Stated over plain functions of the coordinates, so that neither layout is in it.

  A masked entry takes the finite fill value, an unmasked one the scaled inner product of its query and key rows;
  a row of scores is shifted by its maximum (the fold of `max` from the word that denotes the lower infinity),
  exponentiated, and divided by the row's sum: the weights. The context is the weights' product with the value
  rows, times the post-scale entry.
-/
import Idealize.ShloMosaic.PureOps.Ideal
import Idealize.ShloMosaic.Lib.ValueIdx
import Mathlib.Data.Finset.Fold

noncomputable section

open scoped BigOperators

namespace Cert.Attn

open Idealize.ShloMosaic

/-- The scale applied to an inner product: the f32 word nearest to 1/sqrt 32, read exactly. -/
abbrev scale : EReal := Ideal.ofBits .f32 0x3E3504F3#32
/-- The finite value a masked score takes: the f32 word of -1e9. -/
abbrev fill : EReal := Ideal.ofBits .f32 0xCE6E6B28#32
/-- The value a row maximum starts from: the f32 word of the lower infinity. -/
abbrev negInf : EReal := Ideal.ofBits .f32 0xFF800000#32

/-- The score of query `i` against key `j`: the fill where the mask bit is set, else the scaled inner product. -/
def score (q k : Fin 8 → Fin 32 → EReal) (msk : Fin 8 → Fin 8 → BitVec 1) (i j : Fin 8) : EReal :=
  Scalar.select (msk i j) fill ((∑ d : Fin 32, q i d * k j d) * scale)

/-- A row's maximum, from the lower infinity. -/
def rowMax (s : Fin 8 → EReal) : EReal := (Finset.univ : Finset (Fin 8)).fold max negInf s

/-- A row's entry shifted by the row's maximum, exponentiated. -/
def expo (s : Fin 8 → EReal) (j : Fin 8) : EReal := Ideal.exp (s j - rowMax s)

/-- The softmax of a row of eight scores. -/
def soft (s : Fin 8 → EReal) (j : Fin 8) : EReal := Ideal.div (expo s j) (∑ k : Fin 8, expo s k)

/-- The attention weights of one problem. -/
def weights (q k : Fin 8 → Fin 32 → EReal) (msk : Fin 8 → Fin 8 → BitVec 1) (i j : Fin 8) : EReal :=
  soft (score q k msk i) j

/-- The context of one problem: the weights times the value rows, times the post-scale. -/
def context (q k : Fin 8 → Fin 32 → EReal) (msk : Fin 8 → Fin 8 → BitVec 1) (v hy : Fin 8 → Fin 32 → EReal)
    (i : Fin 8) (d : Fin 32) : EReal :=
  (∑ j : Fin 8, weights q k msk i j * v j d) * hy i d

/-- The maximum of the starting value and a row's maximum is the row's maximum: the fold starts from it. -/
theorem max_negInf_rowMax (s : Fin 8 → EReal) : max negInf (rowMax s) = rowMax s :=
  max_eq_right ((Finset.le_fold_max _).mpr (Or.inl le_rfl))

/-- A one-bit word zero-extended to 32 bits differs from zero exactly when it is set. -/
theorem ne_zero_setWidth (b : BitVec 1) : IntOp.cmpi .ne (b.setWidth 32) 0#32 = b := by
  rcases BitVec.eq_zero_or_eq_one b with h | h <;> subst h <;> decide

end Cert.Attn

end
-- ==== Proof.BlockOps.lean ====
/-
  The kernel's operations on one block of 512 attention problems that are not pointwise, each read at an index
  given by its coordinates — `r` the problem within the block, `i` the query, `j` the key, `d` the feature:
  the batched product of queries with keys (a sum over the feature), the batched product of weights with value rows
  (a sum over the key), a row's maximum and a row's sum over the key axis, and the column that carries a row's
  scalar back over the keys (a cast to a trailing unit axis, then a broadcast along it).
-/
import proofs.«118545_j31215822307973_2_alg».proof.Proof.Gen.KernelIdeal
import proofs.«118545_j31215822307973_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Blk

open Cert.KernelIdeal Cert.KernelIdeal.Gen Idealize.ShloMosaic Idealize.ShloMosaic.ValueIdx

/-- Queries against keys: batch axis 0, the feature axis contracted. -/
abbrev DQK : DotDims S512x8x32 S512x8x32 S512x8x8 := dot_S512x8x32_S512x8x32_S512x8x8_2_2_1_1_0_0
/-- Weights against value rows: batch axis 0, the key axis contracted. -/
abbrev DWV : DotDims S512x8x8 S512x8x32 S512x8x32 := dot_S512x8x8_S512x8x32_S512x8x32_2_1_1_2_0_0

/-! ## The operand indices of the two products -/

theorem qk_lhs0 (y : S512x8x8.Idx) (q : DQK.contr.Idx) : (DQK.lhsIdx y q 0).val = (y 0).val := by
  unfold DotDims.lhsIdx
  rw [dif_pos (show (0 : Fin S512x8x32.rank) ∈ DQK.lhsBatch by decide)]
  rfl
theorem qk_lhs1 (y : S512x8x8.Idx) (q : DQK.contr.Idx) : (DQK.lhsIdx y q 1).val = (y 1).val := by
  unfold DotDims.lhsIdx
  rw [dif_neg (show ¬(1 : Fin S512x8x32.rank) ∈ DQK.lhsBatch by decide), dif_pos (show (1 : Fin S512x8x32.rank) ∈ DQK.lhsNonContracting by decide)]
  rfl
theorem qk_lhs2 (y : S512x8x8.Idx) (q : DQK.contr.Idx) : (DQK.lhsIdx y q 2).val = (q ⟨0, by decide⟩).val :=
  DQK.lhsIdx_val_of_single rfl y q
theorem qk_rhs0 (y : S512x8x8.Idx) (q : DQK.contr.Idx) : (DQK.rhsIdx y q 0).val = (y 0).val := by
  unfold DotDims.rhsIdx
  rw [dif_pos (show (0 : Fin S512x8x32.rank) ∈ DQK.rhsBatch by decide)]
  rfl
theorem qk_rhs1 (y : S512x8x8.Idx) (q : DQK.contr.Idx) : (DQK.rhsIdx y q 1).val = (y 2).val := by
  unfold DotDims.rhsIdx
  rw [dif_neg (show ¬(1 : Fin S512x8x32.rank) ∈ DQK.rhsBatch by decide), dif_pos (show (1 : Fin S512x8x32.rank) ∈ DQK.rhsNonContracting by decide)]
  rfl
theorem qk_rhs2 (y : S512x8x8.Idx) (q : DQK.contr.Idx) : (DQK.rhsIdx y q 2).val = (q ⟨0, by decide⟩).val :=
  DQK.rhsIdx_val_of_single rfl y q

theorem wv_lhs0 (y : S512x8x32.Idx) (q : DWV.contr.Idx) : (DWV.lhsIdx y q 0).val = (y 0).val := by
  unfold DotDims.lhsIdx
  rw [dif_pos (show (0 : Fin S512x8x8.rank) ∈ DWV.lhsBatch by decide)]
  rfl
theorem wv_lhs1 (y : S512x8x32.Idx) (q : DWV.contr.Idx) : (DWV.lhsIdx y q 1).val = (y 1).val := by
  unfold DotDims.lhsIdx
  rw [dif_neg (show ¬(1 : Fin S512x8x8.rank) ∈ DWV.lhsBatch by decide), dif_pos (show (1 : Fin S512x8x8.rank) ∈ DWV.lhsNonContracting by decide)]
  rfl
theorem wv_lhs2 (y : S512x8x32.Idx) (q : DWV.contr.Idx) : (DWV.lhsIdx y q 2).val = (q ⟨0, by decide⟩).val :=
  DWV.lhsIdx_val_of_single rfl y q
theorem wv_rhs0 (y : S512x8x32.Idx) (q : DWV.contr.Idx) : (DWV.rhsIdx y q 0).val = (y 0).val := by
  unfold DotDims.rhsIdx
  rw [dif_pos (show (0 : Fin S512x8x32.rank) ∈ DWV.rhsBatch by decide)]
  rfl
theorem wv_rhs1 (y : S512x8x32.Idx) (q : DWV.contr.Idx) : (DWV.rhsIdx y q 1).val = (q ⟨0, by decide⟩).val :=
  DWV.rhsIdx_val_of_single rfl y q
theorem wv_rhs2 (y : S512x8x32.Idx) (q : DWV.contr.Idx) : (DWV.rhsIdx y q 2).val = (y 2).val := by
  unfold DotDims.rhsIdx
  rw [dif_neg (show ¬(2 : Fin S512x8x32.rank) ∈ DWV.rhsBatch by decide), dif_pos (show (2 : Fin S512x8x32.rank) ∈ DWV.rhsNonContracting by decide)]
  rfl

/-! ## The two products at an index -/

/-- Entry (r, i, j) of the queries-by-keys product into a zero accumulator: the inner product of query row `i`
    and key row `j` of problem `r`. -/
theorem qk_apply {φ₁ φ₂ : FTy} (a : FVec Ideal S512x8x32 φ₁) (b : FVec Ideal S512x8x32 φ₂) (r : Fin 512) (i j : Fin 8) :
    matmul DQK none a b (constant (F := Ideal) S512x8x8 .f32 0x00000000#32) (ix3 r i j)
      = ∑ d : Fin 32, a (ix3 r i d) * b (ix3 r j d) := by
  simp only [matmul]
  rw [Ideal.matmul_constant_zero_apply, ← Equiv.sum_comp (contrEquiv1 DQK 32 rfl rfl).symm]
  refine Finset.sum_congr rfl fun k _ => ?_
  have hk := contrEquiv1_symm_val DQK 32 rfl rfl k
  have el : DQK.lhsIdx (ix3 r i j) ((contrEquiv1 DQK 32 rfl rfl).symm k) = ix3 r i k := funext fun c => Fin.ext (by
    match c with
    | ⟨0, _⟩ => exact qk_lhs0 _ _
    | ⟨1, _⟩ => exact qk_lhs1 _ _
    | ⟨2, _⟩ => exact (qk_lhs2 _ _).trans hk)
  have er : DQK.rhsIdx (ix3 r i j) ((contrEquiv1 DQK 32 rfl rfl).symm k) = ix3 r j k := funext fun c => Fin.ext (by
    match c with
    | ⟨0, _⟩ => exact qk_rhs0 _ _
    | ⟨1, _⟩ => exact qk_rhs1 _ _
    | ⟨2, _⟩ => exact (qk_rhs2 _ _).trans hk)
  rw [el, er]

/-- Entry (r, i, d) of the weights-by-values product into a zero accumulator: the sum over the keys of weight
    (i, j) times feature `d` of value row `j`, in problem `r`. -/
theorem wv_apply {φ₁ φ₂ : FTy} (w : FVec Ideal S512x8x8 φ₁) (v : FVec Ideal S512x8x32 φ₂) (r : Fin 512) (i : Fin 8) (d : Fin 32) :
    matmul DWV none w v (constant (F := Ideal) S512x8x32 .f32 0x00000000#32) (ix3 r i d)
      = ∑ j : Fin 8, w (ix3 r i j) * v (ix3 r j d) := by
  simp only [matmul]
  rw [Ideal.matmul_constant_zero_apply, ← Equiv.sum_comp (contrEquiv1 DWV 8 rfl rfl).symm]
  refine Finset.sum_congr rfl fun k _ => ?_
  have hk := contrEquiv1_symm_val DWV 8 rfl rfl k
  have el : DWV.lhsIdx (ix3 r i d) ((contrEquiv1 DWV 8 rfl rfl).symm k) = ix3 r i k := funext fun c => Fin.ext (by
    match c with
    | ⟨0, _⟩ => exact wv_lhs0 _ _
    | ⟨1, _⟩ => exact wv_lhs1 _ _
    | ⟨2, _⟩ => exact (wv_lhs2 _ _).trans hk)
  have er : DWV.rhsIdx (ix3 r i d) ((contrEquiv1 DWV 8 rfl rfl).symm k) = ix3 r k d := funext fun c => Fin.ext (by
    match c with
    | ⟨0, _⟩ => exact wv_rhs0 _ _
    | ⟨1, _⟩ => exact (wv_rhs1 _ _).trans hk
    | ⟨2, _⟩ => exact wv_rhs2 _ _)
  rw [el, er]

/-! ## A row's maximum and sum; the column back over the keys -/

/-- The index a reduction over the key axis reads for key `j` of row (r, i). -/
theorem lift_key (h : S512x8x8.Reduces [2] S512x8) (r : Fin 512) (i j : Fin 8) : h.lift (ix2 r i) j = ix3 r i j :=
  funext fun c => Fin.ext (by match c with | ⟨0, _⟩ => rfl | ⟨1, _⟩ => rfl | ⟨2, _⟩ => rfl)

/-- The maximum over the keys, from the lower infinity, at row (r, i). -/
theorem rowmax_apply (s : FVec Ideal S512x8x8 .f32) (h : S512x8x8.Reduces [2] S512x8) (hφ : FKind.Formats .f32)
    (hacc : (0xFF800000#32 : BitVec 32) = FKind.maximumf.neutral .f32 hφ) (r : Fin 512) (i : Fin 8) :
    multiReduction .maximumf [2] S512x8 s 0xFF800000#32 h hφ hacc (ix2 r i) = Cert.Attn.rowMax fun j => s (ix3 r i j) := by
  refine (Ideal.multiReduction_maximumf_single s 0xFF800000#32 h hφ hacc (ix2 r i)).trans ?_
  unfold Cert.Attn.rowMax
  exact Finset.fold_congr fun j _ => congrArg s (lift_key h r i j)

/-- The sum over the keys at row (r, i). -/
theorem rowsum_apply (s : FVec Ideal S512x8x8 .f32) (h : S512x8x8.Reduces [2] S512x8) (hφ : FKind.Formats .f32)
    (hacc : (0x00000000#32 : BitVec 32) = FKind.add.neutral .f32 hφ) (r : Fin 512) (i : Fin 8) :
    multiReduction .add [2] S512x8 s 0x00000000#32 h hφ hacc (ix2 r i) = ∑ j : Fin 8, s (ix3 r i j) := by
  refine (Ideal.multiReduction_add_single s 0x00000000#32 h hφ hacc (ix2 r i)).trans ?_
  exact Finset.sum_congr rfl fun j _ => congrArg s (lift_key h r i j)

/-- A per-row scalar cast to a trailing unit axis and broadcast over the keys reads, at (r, i, j), the scalar of
    row (r, i). -/
theorem column_apply {α : Type} (v : S512x8.Idx → α) (h1 : S512x8.ShapeCasts S512x8x1) (h2 : S512x8x1.Broadcasts S512x8x8)
    (r : Fin 512) (i j : Fin 8) :
    broadcastTo S512x8x8 (shapeCast S512x8x1 v h1) h2 (ix3 r i j) = v (ix2 r i) := by
  refine (broadcastTo_apply (shapeCast S512x8x1 v h1) h2 (ix3 r i j) (ix3 r i (0 : Fin 1)) (fun c => ?_)).trans ?_
  · match c with
    | ⟨0, _⟩ => show r.val = if (512 : Nat) = 1 then 0 else r.val; rw [if_neg (by decide)]
    | ⟨1, _⟩ => show i.val = if (8 : Nat) = 1 then 0 else i.val; rw [if_neg (by decide)]
    | ⟨2, _⟩ => show 0 = if (1 : Nat) = 1 then 0 else j.val; rw [if_pos rfl]
  · exact shapeCast_apply v h1 (ix3 r i (0 : Fin 1)) (ix2 r i) (by
      rw [Shape.rowMajor_val_two, Shape.rowMajor_val_three]
      show r.val * 8 + i.val = (r.val * 8 + i.val) * 1 + 0
      omega)

end Cert.KernelIdeal.Blk

end
-- ==== Proof.Payload.lean ====
/-
  The two values the kernel body stores for one block of 512 problems, read at an index: the weights block is, at
  (r, i, j), the softmax weight (i, j) of problem `r`, and the context block is, at (r, i, d), that problem's context
  entry (i, d) — each a function only of problem `r`'s own rows of the loaded blocks. The body's term is cut into
  three stages (masked scaled scores; exponentials of the scores shifted by the row maximum; the quotient by the row
  sum), each read at an index on its own.
-/
import proofs.«118545_j31215822307973_2_alg».proof.Proof.Gen.KernelIdeal.Skeleton
import proofs.«118545_j31215822307973_2_alg».proof.Proof.BlockOps

noncomputable section

open scoped BigOperators

namespace Cert.KernelIdeal.Pay

open Cert.KernelIdeal Cert.KernelIdeal.Gen Cert.KernelIdeal.Blk Idealize.ShloMosaic Idealize.ShloMosaic.ValueIdx

/-- The block's scores: the fill where the staged mask word is not zero, else the scaled product of the query and
    key blocks (rounded to a narrower format on the way in, which changes no extended real). -/
def scoresBlk (x0 x1 : Vec Ideal S512x8x32 .f32) (x3 : Vec Ideal S512x8x8 .i32) : FVec Ideal S512x8x8 .f32 :=
  select (cmpi .ne (shapeCast S512x8x8 x3 shapeCasts_S512x8x8_S512x8x8) (broadcast S512x8x8 (0#32 : BitVec 32)))
    (broadcast S512x8x8 (Scalar.ofBits (F := Ideal) .f32 0xCE6E6B28#32))
    (mulf (matmul DQK none (truncf .bf16 (shapeCast S512x8x32 x0 shapeCasts_S512x8x32_S512x8x32) bitsLt_bf16_f32)
        (truncf .bf16 (shapeCast S512x8x32 x1 shapeCasts_S512x8x32_S512x8x32) bitsLt_bf16_f32)
        (constant (F := Ideal) S512x8x8 .f32 0x00000000#32))
      (broadcast S512x8x8 (Scalar.ofBits (F := Ideal) .f32 0x3E3504F3#32)))

/-- The exponentials of a block of scores, each row shifted by its maximum. -/
def expBlk (s : FVec Ideal S512x8x8 .f32) : FVec Ideal S512x8x8 .f32 :=
  exp (subf s (broadcastTo S512x8x8 (shapeCast S512x8x1
    (multiReduction .maximumf [2] S512x8 s 0xFF800000#32 reduces_S512x8x8_S512x8 (.inl rfl) rfl)
    shapeCasts_S512x8_S512x8x1) broadcasts_S512x8x1_S512x8x8))

/-- The exponentials divided by their row sums. -/
def softBlk (s : FVec Ideal S512x8x8 .f32) : FVec Ideal S512x8x8 .f32 :=
  divf (expBlk s) (broadcastTo S512x8x8 (shapeCast S512x8x1
    (multiReduction .add [2] S512x8 (expBlk s) 0x00000000#32 reduces_S512x8x8_S512x8 (.inl rfl) rfl)
    shapeCasts_S512x8_S512x8x1) broadcasts_S512x8x1_S512x8x8)

/-- The stored weights block is the three stages composed. -/
theorem pay1_eq (x0 x1 : Vec Ideal S512x8x32 .f32) (x3 : Vec Ideal S512x8x8 .i32) :
    k0_pay1 x0 x1 x3 = softBlk (scoresBlk x0 x1 x3) := rfl

/-- A block's score (r, i, j) is problem `r`'s score (i, j). -/
theorem scoresBlk_apply (x0 x1 : Vec Ideal S512x8x32 .f32) (x3 : Vec Ideal S512x8x8 .i32) (r : Fin 512) (i j : Fin 8) :
    scoresBlk x0 x1 x3 (ix3 r i j)
      = Cert.Attn.score (fun i d => x0 (ix3 r i d)) (fun j d => x1 (ix3 r j d))
          (fun i j => IntOp.cmpi .ne (x3 (ix3 r i j)) 0#32) i j := by
  unfold scoresBlk Cert.Attn.score
  rw [shapeCast_self, shapeCast_self, shapeCast_self]
  refine congrArg (Scalar.select (IntOp.cmpi .ne (x3 (ix3 r i j)) 0#32) Cert.Attn.fill) ?_
  refine congrArg (· * Cert.Attn.scale) ?_
  exact qk_apply _ _ r i j

/-- A block's shifted exponential (r, i, j) is that of row `i` of problem `r`. -/
theorem expBlk_apply (s : FVec Ideal S512x8x8 .f32) (r : Fin 512) (i j : Fin 8) :
    expBlk s (ix3 r i j) = Cert.Attn.expo (fun j => s (ix3 r i j)) j := by
  unfold expBlk Cert.Attn.expo
  refine congrArg (fun z => Ideal.exp (s (ix3 r i j) - z)) ?_
  refine (column_apply _ _ _ r i j).trans ?_
  exact rowmax_apply s _ _ _ r i

/-- A block's quotient (r, i, j) is the softmax of row `i` of problem `r` at `j`. -/
theorem softBlk_apply (s : FVec Ideal S512x8x8 .f32) (r : Fin 512) (i j : Fin 8) :
    softBlk s (ix3 r i j) = Cert.Attn.soft (fun j => s (ix3 r i j)) j := by
  unfold softBlk Cert.Attn.soft
  refine (congrArg (Ideal.div (expBlk s (ix3 r i j))) ?_).trans (congrArg (Ideal.div · _) (expBlk_apply s r i j))
  refine (column_apply _ _ _ r i j).trans ?_
  refine (rowsum_apply (expBlk s) _ _ _ r i).trans ?_
  exact Finset.sum_congr rfl fun k _ => expBlk_apply s r i k

/-- THE WEIGHTS BLOCK at (r, i, j): the weight (i, j) of the problem whose rows are row `r` of the loaded blocks. -/
theorem pay1_apply (x0 x1 : Vec Ideal S512x8x32 .f32) (x3 : Vec Ideal S512x8x8 .i32) (r : Fin 512) (i j : Fin 8) :
    k0_pay1 x0 x1 x3 (ix3 r i j)
      = Cert.Attn.weights (fun i d => x0 (ix3 r i d)) (fun j d => x1 (ix3 r j d))
          (fun i j => IntOp.cmpi .ne (x3 (ix3 r i j)) 0#32) i j := by
  rw [pay1_eq]
  refine (softBlk_apply _ r i j).trans ?_
  unfold Cert.Attn.weights
  exact congrArg (fun s => Cert.Attn.soft s j) (funext fun j' => scoresBlk_apply x0 x1 x3 r i j')

/-- THE CONTEXT BLOCK at (r, i, d): the context entry (i, d) of that problem, with value rows and post-scale rows
    read from row `r` of their blocks. -/
theorem pay2_apply (x0 x1 x2 : Vec Ideal S512x8x32 .f32) (x3 : Vec Ideal S512x8x8 .i32) (x4 : Vec Ideal S512x8x32 .f32)
    (r : Fin 512) (i : Fin 8) (d : Fin 32) :
    k0_pay2 x0 x1 x2 x3 x4 (ix3 r i d)
      = Cert.Attn.context (fun i d => x0 (ix3 r i d)) (fun j d => x1 (ix3 r j d))
          (fun i j => IntOp.cmpi .ne (x3 (ix3 r i j)) 0#32) (fun j d => x2 (ix3 r j d)) (fun i d => x4 (ix3 r i d)) i d := by
  unfold k0_pay2 Cert.Attn.context
  dsimp only
  rw [shapeCast_self, shapeCast_self]
  refine congrArg (· * x4 (ix3 r i d)) ?_
  refine (wv_apply _ _ r i d).trans ?_
  exact Finset.sum_congr rfl fun j _ => congrArg (· * x2 (ix3 r j d)) (pay1_apply x0 x1 x3 r i j)

end Cert.KernelIdeal.Pay

end
-- ==== Proof.Whole.lean ====
/-
  The attention of every (batch, head) pair as whole-array functions, in the two layouts the programs use, and the
  passage between them. Flattened, a pair (b, h) is the problem number b·16 + h of 16384, and an array
  [16384, 8, n] is the row-major recast of [1024, 16, 8, n]: entry (b·16 + h, i, d) of the one is entry (b, h, i, d) of the
  other. So the flattened weights and context of the recast arguments, recast back, are the four-dimensional weights
  and context of the arguments themselves. The flattened mask arrives as 32-bit words, the zero-extension of the
  mask's bits, and is tested against zero: that test gives the bit back.
-/
import proofs.«118545_j31215822307973_2_alg».proof.Proof.Spec
import Idealize.ShloMosaic.Lib.Pipeline.Value
import Idealize.ShloMosaic.Lib.ValueIdx

noncomputable section

open scoped BigOperators

namespace Cert.Attn

open Idealize.ShloMosaic Idealize.ShloMosaic.ValueIdx

abbrev A4x32 : Shape := ⟨4, ![1024, 16, 8, 32]⟩
abbrev A4x8 : Shape := ⟨4, ![1024, 16, 8, 8]⟩
abbrev A3x32 : Shape := ⟨3, ![16384, 8, 32]⟩
abbrev A3x8 : Shape := ⟨3, ![16384, 8, 8]⟩

/-! ## The whole-array functions -/

/-- The weights over the flattened layout: entry (n, i, j) is weight (i, j) of problem `n`, whose mask bit is
    "the staged word is not zero". -/
def W3 (q k : A3x32.Idx → EReal) (mk : A3x8.Idx → BitVec 32) : A3x8.Idx → EReal := fun y =>
  weights (fun i d => q (ix3 (y 0) i d)) (fun j d => k (ix3 (y 0) j d))
    (fun i j => IntOp.cmpi .ne (mk (ix3 (y 0) i j)) 0#32) (y 1) (y 2)

/-- The context over the flattened layout. -/
def C3 (q k v hy : A3x32.Idx → EReal) (mk : A3x8.Idx → BitVec 32) : A3x32.Idx → EReal := fun y =>
  context (fun i d => q (ix3 (y 0) i d)) (fun j d => k (ix3 (y 0) j d))
    (fun i j => IntOp.cmpi .ne (mk (ix3 (y 0) i j)) 0#32) (fun j d => v (ix3 (y 0) j d)) (fun i d => hy (ix3 (y 0) i d)) (y 1) (y 2)

/-- The weights over the four-dimensional layout: entry (b, h, i, j) is weight (i, j) of the pair (b, h). -/
def W4 (Q K : A4x32.Idx → EReal) (M : A4x8.Idx → BitVec 1) : A4x8.Idx → EReal := fun y =>
  weights (fun i d => Q (ix4 (y 0) (y 1) i d)) (fun j d => K (ix4 (y 0) (y 1) j d))
    (fun i j => M (ix4 (y 0) (y 1) i j)) (y 2) (y 3)

/-- The context over the four-dimensional layout. -/
def C4 (Q K V : A4x32.Idx → EReal) (M : A4x8.Idx → BitVec 1) (H : A4x32.Idx → EReal) : A4x32.Idx → EReal := fun y =>
  context (fun i d => Q (ix4 (y 0) (y 1) i d)) (fun j d => K (ix4 (y 0) (y 1) j d))
    (fun i j => M (ix4 (y 0) (y 1) i j)) (fun j d => V (ix4 (y 0) (y 1) j d)) (fun i d => H (ix4 (y 0) (y 1) i d)) (y 2) (y 3)

theorem W3_ix3 (q k : A3x32.Idx → EReal) (mk : A3x8.Idx → BitVec 32) (n : Fin 16384) (i j : Fin 8) :
    W3 q k mk (ix3 n i j) = weights (fun i d => q (ix3 n i d)) (fun j d => k (ix3 n j d))
      (fun i j => IntOp.cmpi .ne (mk (ix3 n i j)) 0#32) i j := rfl

theorem C3_ix3 (q k v hy : A3x32.Idx → EReal) (mk : A3x8.Idx → BitVec 32) (n : Fin 16384) (i : Fin 8) (d : Fin 32) :
    C3 q k v hy mk (ix3 n i d) = context (fun i d => q (ix3 n i d)) (fun j d => k (ix3 n j d))
      (fun i j => IntOp.cmpi .ne (mk (ix3 n i j)) 0#32) (fun j d => v (ix3 n j d)) (fun i d => hy (ix3 n i d)) i d := rfl

theorem W4_ix4 (Q K : A4x32.Idx → EReal) (M : A4x8.Idx → BitVec 1) (b : Fin 1024) (h : Fin 16) (i j : Fin 8) :
    W4 Q K M (ix4 b h i j) = weights (fun i d => Q (ix4 b h i d)) (fun j d => K (ix4 b h j d))
      (fun i j => M (ix4 b h i j)) i j := rfl

theorem C4_ix4 (Q K V : A4x32.Idx → EReal) (M : A4x8.Idx → BitVec 1) (H : A4x32.Idx → EReal) (b : Fin 1024) (h : Fin 16)
    (i : Fin 8) (d : Fin 32) :
    C4 Q K V M H (ix4 b h i d) = context (fun i d => Q (ix4 b h i d)) (fun j d => K (ix4 b h j d))
      (fun i j => M (ix4 b h i j)) (fun j d => V (ix4 b h j d)) (fun i d => H (ix4 b h i d)) i d := rfl

/-! ## The recast between the layouts -/

/-- The flattened number of the pair (b, h). -/
def flat (b : Fin 1024) (h : Fin 16) : Fin 16384 := ⟨b.val * 16 + h.val, by omega⟩

/-- A four-dimensional array with 32 features, flattened, reads at (b·16 + h, i, d) its entry (b, h, i, d). -/
theorem flat32 {α : Type} (x : A4x32.Idx → α) (hc : A4x32.ShapeCasts A3x32) (b : Fin 1024) (h : Fin 16) (i : Fin 8) (d : Fin 32) :
    shapeCast A3x32 x hc (ix3 (flat b h) i d) = x (ix4 b h i d) :=
  shapeCast_apply x hc (ix3 (flat b h) i d) (ix4 b h i d) (by
    rw [Shape.rowMajor_val_four, Shape.rowMajor_val_three]
    show ((b.val * 16 + h.val) * 8 + i.val) * 32 + d.val = ((b.val * 16 + h.val) * 8 + i.val) * 32 + d.val
    rfl)

/-- The same with 8 keys in the last place. -/
theorem flat8 {α : Type} (x : A4x8.Idx → α) (hc : A4x8.ShapeCasts A3x8) (b : Fin 1024) (h : Fin 16) (i j : Fin 8) :
    shapeCast A3x8 x hc (ix3 (flat b h) i j) = x (ix4 b h i j) :=
  shapeCast_apply x hc (ix3 (flat b h) i j) (ix4 b h i j) (by
    rw [Shape.rowMajor_val_four, Shape.rowMajor_val_three]
    show ((b.val * 16 + h.val) * 8 + i.val) * 8 + j.val = ((b.val * 16 + h.val) * 8 + i.val) * 8 + j.val
    rfl)

/-- A flattened array with 32 features, recast to four dimensions, reads at (b, h, i, d) its entry (b·16 + h, i, d). -/
theorem unflat32 {α : Type} (x : A3x32.Idx → α) (hc : A3x32.ShapeCasts A4x32) (b : Fin 1024) (h : Fin 16) (i : Fin 8) (d : Fin 32) :
    shapeCast A4x32 x hc (ix4 b h i d) = x (ix3 (flat b h) i d) :=
  shapeCast_apply x hc (ix4 b h i d) (ix3 (flat b h) i d) (by
    rw [Shape.rowMajor_val_four, Shape.rowMajor_val_three]
    show ((b.val * 16 + h.val) * 8 + i.val) * 32 + d.val = ((b.val * 16 + h.val) * 8 + i.val) * 32 + d.val
    rfl)

/-- The same with 8 keys in the last place. -/
theorem unflat8 {α : Type} (x : A3x8.Idx → α) (hc : A3x8.ShapeCasts A4x8) (b : Fin 1024) (h : Fin 16) (i j : Fin 8) :
    shapeCast A4x8 x hc (ix4 b h i j) = x (ix3 (flat b h) i j) :=
  shapeCast_apply x hc (ix4 b h i j) (ix3 (flat b h) i j) (by
    rw [Shape.rowMajor_val_four, Shape.rowMajor_val_three]
    show ((b.val * 16 + h.val) * 8 + i.val) * 8 + j.val = ((b.val * 16 + h.val) * 8 + i.val) * 8 + j.val
    rfl)

/-! ## The flattened functions of the recast arguments, recast back -/

/-- The flattened weights of the flattened arguments (the mask zero-extended to words), recast to four dimensions,
    are the four-dimensional weights. -/
theorem unflat_W3 (Q K : A4x32.Idx → EReal) (M : A4x8.Idx → BitVec 1) (h1 : A4x32.ShapeCasts A3x32) (h2 : A4x8.ShapeCasts A3x8)
    (h3 : A3x8.ShapeCasts A4x8) (hlt : 1 < 32) :
    shapeCast A4x8 (W3 (shapeCast A3x32 Q h1) (shapeCast A3x32 K h1) (extui 32 (shapeCast A3x8 M h2) hlt)) h3 = W4 Q K M := by
  funext y
  obtain ⟨b, h, i, j, rfl⟩ : ∃ (b : Fin 1024) (h : Fin 16) (i j : Fin 8), y = ix4 b h i j := ⟨y 0, y 1, y 2, y 3, eq_ix4 y⟩
  rw [unflat8 _ h3 b h i j, W3_ix3, W4_ix4]
  simp only [extui_apply, flat32, flat8, ne_zero_setWidth]

/-- The flattened context of the flattened arguments, recast to four dimensions, is the four-dimensional context. -/
theorem unflat_C3 (Q K V : A4x32.Idx → EReal) (M : A4x8.Idx → BitVec 1) (H : A4x32.Idx → EReal) (h1 : A4x32.ShapeCasts A3x32)
    (h2 : A4x8.ShapeCasts A3x8) (h4 : A3x32.ShapeCasts A4x32) (hlt : 1 < 32) :
    shapeCast A4x32 (C3 (shapeCast A3x32 Q h1) (shapeCast A3x32 K h1) (shapeCast A3x32 V h1) (shapeCast A3x32 H h1)
      (extui 32 (shapeCast A3x8 M h2) hlt)) h4 = C4 Q K V M H := by
  funext y
  obtain ⟨b, h, i, d, rfl⟩ : ∃ (b : Fin 1024) (h : Fin 16) (i : Fin 8) (d : Fin 32), y = ix4 b h i d := ⟨y 0, y 1, y 2, y 3, eq_ix4 y⟩
  rw [unflat32 _ h4 b h i d, C3_ix3, C4_ix4]
  simp only [extui_apply, flat32, flat8, ne_zero_setWidth]

end Cert.Attn

end
-- ==== Proof.KernelBlocks.lean ====
/-
  What each grid point of the kernel writes back, as blocks of whole-array functions. Point `t` of the 32 works on
  the 512 problems numbered t·512 … t·512 + 511: every window's block index at `t` is (t, 0, 0), so element
  (r, i, d) of a block is element (t·512 + r, i, d) of its array. The weights block the body stores is therefore
  block `t` of the flattened weights of the staged arrays, and the context block is block `t` of their flattened
  context; the 32 blocks tile the 16384 problems, so the two output arrays end as those functions.
-/
import proofs.«118545_j31215822307973_2_alg».proof.Proof.Gen.KernelIdeal.Frame
import proofs.«118545_j31215822307973_2_alg».proof.Proof.Payload
import proofs.«118545_j31215822307973_2_alg».proof.Proof.Whole
import Idealize.ShloMosaic.Lib.Pipeline.Value

noncomputable section

open scoped BigOperators

namespace Cert.KernelIdeal.KV

open Cert.KernelIdeal Cert.KernelIdeal.Gen Cert.KernelIdeal.Pay Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0, 0] : Fin 3 → Nat) = fun _ => 0 := funext fun a => by fin_cases a <;> rfl

/-! ## The block indices, decided over the 32 points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

theorem point_lt (t : Fin cfg0.N) : t.val < 32 := by
  have h : t.val < grid0.N := t.isLt
  rw [N_0] at h
  exact h

/-- Problem `r` of the block at point `t` is problem t·512 + r of the 16384. -/
def row (t : Fin cfg0.N) (r : Fin 512) : Fin 16384 := ⟨t.val * 512 + r.val, by have := point_lt t; omega⟩

/-! ## An element of a block, in its array -/

theorem emb0 (t : Fin cfg0.N) (r : Fin 512) (i : Fin 8) (d : Fin 32) :
    ((cfg0.win 0).blk t).view.emb (ix3 r i d) = ix3 (row t r) i d := by
  obtain ⟨e0, e1, e2⟩ := idx0 t
  funext a; apply Fin.ext
  match a with
  | ⟨0, _⟩ => show win0_0.index t (0 : Fin 3) * 512 + 1 * r.val = t.val * 512 + r.val; omega
  | ⟨1, _⟩ => show win0_0.index t (1 : Fin 3) * 8 + 1 * i.val = i.val; omega
  | ⟨2, _⟩ => show win0_0.index t (2 : Fin 3) * 32 + 1 * d.val = d.val; omega
theorem emb1 (t : Fin cfg0.N) (r : Fin 512) (i : Fin 8) (d : Fin 32) :
    ((cfg0.win 1).blk t).view.emb (ix3 r i d) = ix3 (row t r) i d := by
  obtain ⟨e0, e1, e2⟩ := idx1 t
  funext a; apply Fin.ext
  match a with
  | ⟨0, _⟩ => show win0_1.index t (0 : Fin 3) * 512 + 1 * r.val = t.val * 512 + r.val; omega
  | ⟨1, _⟩ => show win0_1.index t (1 : Fin 3) * 8 + 1 * i.val = i.val; omega
  | ⟨2, _⟩ => show win0_1.index t (2 : Fin 3) * 32 + 1 * d.val = d.val; omega
theorem emb2 (t : Fin cfg0.N) (r : Fin 512) (i : Fin 8) (d : Fin 32) :
    ((cfg0.win 2).blk t).view.emb (ix3 r i d) = ix3 (row t r) i d := by
  obtain ⟨e0, e1, e2⟩ := idx2 t
  funext a; apply Fin.ext
  match a with
  | ⟨0, _⟩ => show win0_2.index t (0 : Fin 3) * 512 + 1 * r.val = t.val * 512 + r.val; omega
  | ⟨1, _⟩ => show win0_2.index t (1 : Fin 3) * 8 + 1 * i.val = i.val; omega
  | ⟨2, _⟩ => show win0_2.index t (2 : Fin 3) * 32 + 1 * d.val = d.val; omega
theorem emb3 (t : Fin cfg0.N) (r : Fin 512) (i j : Fin 8) :
    ((cfg0.win 3).blk t).view.emb (ix3 r i j) = ix3 (row t r) i j := by
  obtain ⟨e0, e1, e2⟩ := idx3 t
  funext a; apply Fin.ext
  match a with
  | ⟨0, _⟩ => show win0_3.index t (0 : Fin 3) * 512 + 1 * r.val = t.val * 512 + r.val; omega
  | ⟨1, _⟩ => show win0_3.index t (1 : Fin 3) * 8 + 1 * i.val = i.val; omega
  | ⟨2, _⟩ => show win0_3.index t (2 : Fin 3) * 8 + 1 * j.val = j.val; omega
theorem emb4 (t : Fin cfg0.N) (r : Fin 512) (i : Fin 8) (d : Fin 32) :
    ((cfg0.win 4).blk t).view.emb (ix3 r i d) = ix3 (row t r) i d := by
  obtain ⟨e0, e1, e2⟩ := idx4 t
  funext a; apply Fin.ext
  match a with
  | ⟨0, _⟩ => show win0_4.index t (0 : Fin 3) * 512 + 1 * r.val = t.val * 512 + r.val; omega
  | ⟨1, _⟩ => show win0_4.index t (1 : Fin 3) * 8 + 1 * i.val = i.val; omega
  | ⟨2, _⟩ => show win0_4.index t (2 : Fin 3) * 32 + 1 * d.val = d.val; omega
theorem emb5 (t : Fin cfg0.N) (r : Fin 512) (i : Fin 8) (d : Fin 32) :
    ((cfg0.win 5).blk t).view.emb (ix3 r i d) = ix3 (row t r) i d := by
  obtain ⟨e0, e1, e2⟩ := idx5 t
  funext a; apply Fin.ext
  match a with
  | ⟨0, _⟩ => show win0_5.index t (0 : Fin 3) * 512 + 1 * r.val = t.val * 512 + r.val; omega
  | ⟨1, _⟩ => show win0_5.index t (1 : Fin 3) * 8 + 1 * i.val = i.val; omega
  | ⟨2, _⟩ => show win0_5.index t (2 : Fin 3) * 32 + 1 * d.val = d.val; omega
theorem emb6 (t : Fin cfg0.N) (r : Fin 512) (i j : Fin 8) :
    ((cfg0.win 6).blk t).view.emb (ix3 r i j) = ix3 (row t r) i j := by
  obtain ⟨e0, e1, e2⟩ := idx6 t
  funext a; apply Fin.ext
  match a with
  | ⟨0, _⟩ => show win0_6.index t (0 : Fin 3) * 512 + 1 * r.val = t.val * 512 + r.val; omega
  | ⟨1, _⟩ => show win0_6.index t (1 : Fin 3) * 8 + 1 * i.val = i.val; omega
  | ⟨2, _⟩ => show win0_6.index t (2 : Fin 3) * 8 + 1 * j.val = j.val; omega

/-! ## The input blocks read off their arrays -/

theorem iblk0_apply (c : Dev nD) (t : Fin cfg0.N) (r : Fin 512) (i : Fin 8) (d : Fin 32) :
    iblk m c 0 t (ix3 r i d) = V m c main_v0 (ix3 (row t r) i d) := by
  show V m c main_v0 (((cfg0.win 0).blk t).view.emb (ix3 r i d)) = _
  rw [emb0]
theorem iblk1_apply (c : Dev nD) (t : Fin cfg0.N) (r : Fin 512) (i : Fin 8) (d : Fin 32) :
    iblk m c 1 t (ix3 r i d) = V m c main_v1 (ix3 (row t r) i d) := by
  show V m c main_v1 (((cfg0.win 1).blk t).view.emb (ix3 r i d)) = _
  rw [emb1]
theorem iblk2_apply (c : Dev nD) (t : Fin cfg0.N) (r : Fin 512) (i : Fin 8) (d : Fin 32) :
    iblk m c 2 t (ix3 r i d) = V m c main_v2 (ix3 (row t r) i d) := by
  show V m c main_v2 (((cfg0.win 2).blk t).view.emb (ix3 r i d)) = _
  rw [emb2]
theorem iblk3_apply (c : Dev nD) (t : Fin cfg0.N) (r : Fin 512) (i j : Fin 8) :
    iblk m c 3 t (ix3 r i j) = V m c main_v4 (ix3 (row t r) i j) := by
  show V m c main_v4 (((cfg0.win 3).blk t).view.emb (ix3 r i j)) = _
  rw [emb3]
theorem iblk4_apply (c : Dev nD) (t : Fin cfg0.N) (r : Fin 512) (i : Fin 8) (d : Fin 32) :
    iblk m c 4 t (ix3 r i d) = V m c main_v6 (ix3 (row t r) i d) := by
  show V m c main_v6 (((cfg0.win 4).blk t).view.emb (ix3 r i d)) = _
  rw [emb4]

/-! ## What a point writes back: its block of the whole-array functions -/

/-- Point `t` writes back, to the weights array, block `t` of the flattened weights of the staged query, key and
    mask arrays. -/
theorem flushed6_eq (c : Dev nD) (t : Fin cfg0.N) :
    (dats m 0 c).flushed 6 t = ((cfg0.win 6).blk t).view.read (Elt Ideal)
      (Cert.Attn.W3 (V m c main_v0) (V m c main_v1) (V m c main_v4)) := by
  show (cfg0.win 6).cut (grid0.coords t) ((dats m 0 c).after 6 t) = _
  rw [after0_6]
  unfold out0_6
  rw [View.canon_unit_zero hz]
  simp only [View.ld_unit_zero (S := S512x8x32) hz, View.ld_unit_zero (S := S512x8x8) hz]
  funext y
  obtain ⟨r, i, j, rfl⟩ : ∃ (r : Fin 512) (i j : Fin 8), y = ix3 r i j := ⟨y 0, y 1, y 2, eq_ix3 y⟩
  show k0_pay1 (iblk m c 0 t) (iblk m c 1 t) (iblk m c 3 t) (ix3 r i j)
    = Cert.Attn.W3 (V m c main_v0) (V m c main_v1) (V m c main_v4) (((cfg0.win 6).blk t).view.emb (ix3 r i j))
  rw [emb6, Cert.Attn.W3_ix3]
  refine (pay1_apply (iblk m c 0 t) (iblk m c 1 t) (iblk m c 3 t) r i j).trans ?_
  simp only [iblk0_apply, iblk1_apply, iblk3_apply]

/-- Point `t` writes back, to the context array, block `t` of the flattened context of the staged arrays. -/
theorem flushed5_eq (c : Dev nD) (t : Fin cfg0.N) :
    (dats m 0 c).flushed 5 t = ((cfg0.win 5).blk t).view.read (Elt Ideal)
      (Cert.Attn.C3 (V m c main_v0) (V m c main_v1) (V m c main_v2) (V m c main_v6) (V m c main_v4)) := by
  show (cfg0.win 5).cut (grid0.coords t) ((dats m 0 c).after 5 t) = _
  rw [after0_5]
  unfold out0_5
  rw [View.canon_unit_zero hz]
  simp only [View.ld_unit_zero (S := S512x8x32) hz, View.ld_unit_zero (S := S512x8x8) hz]
  funext y
  obtain ⟨r, i, d, rfl⟩ : ∃ (r : Fin 512) (i : Fin 8) (d : Fin 32), y = ix3 r i d := ⟨y 0, y 1, y 2, eq_ix3 y⟩
  show k0_pay2 (iblk m c 0 t) (iblk m c 1 t) (iblk m c 2 t) (iblk m c 3 t) (iblk m c 4 t) (ix3 r i d)
    = Cert.Attn.C3 (V m c main_v0) (V m c main_v1) (V m c main_v2) (V m c main_v6) (V m c main_v4)
        (((cfg0.win 5).blk t).view.emb (ix3 r i d))
  rw [emb5, Cert.Attn.C3_ix3]
  refine (pay2_apply (iblk m c 0 t) (iblk m c 1 t) (iblk m c 2 t) (iblk m c 3 t) (iblk m c 4 t) r i d).trans ?_
  simp only [iblk0_apply, iblk1_apply, iblk2_apply, iblk3_apply, iblk4_apply]

/-! ## The blocks tile the arrays -/

theorem mem_blk6 (t : Fin cfg0.N) (y : S16384x8x8.Idx) :
    y ∈ ((cfg0.win 6).blk t).view.set ↔ ∀ a : Fin 3, win0_6.index t a * S512x8x8.size a ≤ (y a).val
      ∧ (y a).val < win0_6.index t a * S512x8x8.size a + S512x8x8.size a := by
  show y ∈ ((View.whole main_v7_1).slice (win0_6.rect t)).set ↔ _
  rw [View.set_slice_whole, Rect.mem_set_unit]
  exact Iff.rfl

theorem mem_blk5 (t : Fin cfg0.N) (y : S16384x8x32.Idx) :
    y ∈ ((cfg0.win 5).blk t).view.set ↔ ∀ a : Fin 3, win0_5.index t a * S512x8x32.size a ≤ (y a).val
      ∧ (y a).val < win0_5.index t a * S512x8x32.size a + S512x8x32.size a := by
  show y ∈ ((View.whole main_v7_0).slice (win0_5.rect t)).set ↔ _
  rw [View.set_slice_whole, Rect.mem_set_unit]
  exact Iff.rfl

/-- Problem `n` of the weights array is in the block of point n / 512. -/
theorem cover6 (y : S16384x8x8.Idx) :
    ∃ t : Fin cfg0.N, (cfg0.win 6).flush t = true ∧ y ∈ ((cfg0.win 6).blk t).view.set := by
  have hy0 : (y 0).val < 16384 := (y 0).isLt
  have hy1 : (y 1).val < 8 := (y 1).isLt
  have hy2 : (y 2).val < 8 := (y 2).isLt
  have hN : grid0.N = 32 := N_0
  obtain ⟨t, htv⟩ : ∃ t : Fin cfg0.N, t.val = (y 0).val / 512 :=
    ⟨⟨(y 0).val / 512, by show (y 0).val / 512 < grid0.N; omega⟩, rfl⟩
  obtain ⟨e0, e1, e2⟩ := idx6 t
  refine ⟨t, flush0_6 t, ?_⟩
  rw [mem_blk6]
  intro a
  match a with
  | ⟨0, _⟩ => show win0_6.index t (0 : Fin 3) * 512 ≤ (y 0).val ∧ (y 0).val < win0_6.index t (0 : Fin 3) * 512 + 512; omega
  | ⟨1, _⟩ => show win0_6.index t (1 : Fin 3) * 8 ≤ (y 1).val ∧ (y 1).val < win0_6.index t (1 : Fin 3) * 8 + 8; omega
  | ⟨2, _⟩ => show win0_6.index t (2 : Fin 3) * 8 ≤ (y 2).val ∧ (y 2).val < win0_6.index t (2 : Fin 3) * 8 + 8; omega

/-- The same for the context array. -/
theorem cover5 (y : S16384x8x32.Idx) :
    ∃ t : Fin cfg0.N, (cfg0.win 5).flush t = true ∧ y ∈ ((cfg0.win 5).blk t).view.set := by
  have hy0 : (y 0).val < 16384 := (y 0).isLt
  have hy1 : (y 1).val < 8 := (y 1).isLt
  have hy2 : (y 2).val < 32 := (y 2).isLt
  have hN : grid0.N = 32 := N_0
  obtain ⟨t, htv⟩ : ∃ t : Fin cfg0.N, t.val = (y 0).val / 512 :=
    ⟨⟨(y 0).val / 512, by show (y 0).val / 512 < grid0.N; omega⟩, rfl⟩
  obtain ⟨e0, e1, e2⟩ := idx5 t
  refine ⟨t, flush0_5 t, ?_⟩
  rw [mem_blk5]
  intro a
  match a with
  | ⟨0, _⟩ => show win0_5.index t (0 : Fin 3) * 512 ≤ (y 0).val ∧ (y 0).val < win0_5.index t (0 : Fin 3) * 512 + 512; omega
  | ⟨1, _⟩ => show win0_5.index t (1 : Fin 3) * 8 ≤ (y 1).val ∧ (y 1).val < win0_5.index t (1 : Fin 3) * 8 + 8; omega
  | ⟨2, _⟩ => show win0_5.index t (2 : Fin 3) * 32 ≤ (y 2).val ∧ (y 2).val < win0_5.index t (2 : Fin 3) * 32 + 32; omega

/-! ## The output arrays after the region -/

/-- The weights array ends as the flattened weights of the staged arrays. -/
theorem final6 (c : Dev nD) :
    (dats m 0 c).arrAt 6 cfg0.N = Cert.Attn.W3 (V m c main_v0) (V m c main_v1) (V m c main_v4) :=
  (dats m 0 c).arrAt_eq_of_cover 6 _ (fun t _ => flushed6_eq m c t) cover6

/-- The context array ends as the flattened context of the staged arrays. -/
theorem final5 (c : Dev nD) :
    (dats m 0 c).arrAt 5 cfg0.N
      = Cert.Attn.C3 (V m c main_v0) (V m c main_v1) (V m c main_v2) (V m c main_v6) (V m c main_v4) :=
  (dats m 0 c).arrAt_eq_of_cover 5 _ (fun t _ => flushed5_eq m c t) cover5

end Cert.KernelIdeal.KV

end
-- ==== Proof.KernelRun.lean ====
/-
  The idealized kernel's run with its two results named. Before the region the host recasts the three float
  arguments and the mask to the flattened layout (the mask's bits zero-extended to words) and the post-scale first to
  [1024, 16, 8, 32] and then flattened; after it the two output arrays are recast to four dimensions. So the results
  are the flattened weights and context of the recast arguments, recast back: the four-dimensional weights and
  context of the arguments.
-/
import proofs.«118545_j31215822307973_2_alg».proof.Proof.KernelBlocks
import Idealize.ShloMosaic.Lib.StableHlo.Run

noncomputable section

namespace Cert.KernelIdeal.KV

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds -/

theorem V_v0 (c : Dev nD) : (V m c main_v0 : S16384x8x32.Idx → Elt Ideal .f32)
    = shapeCast S16384x8x32 (m ((c.tc : Thread nD τ).loc main_arg0)) shapeCasts_S1024x16x8x32_S16384x8x32 := by
  show StableHlo.after hostOps0 (fun b => m (c, b)) (Proc.devRef .tc main_v0) = _
  after_results; rfl

theorem V_v1 (c : Dev nD) : (V m c main_v1 : S16384x8x32.Idx → Elt Ideal .f32)
    = shapeCast S16384x8x32 (m ((c.tc : Thread nD τ).loc main_arg1)) shapeCasts_S1024x16x8x32_S16384x8x32 := by
  show StableHlo.after hostOps0 (fun b => m (c, b)) (Proc.devRef .tc main_v1) = _
  after_results; rfl

theorem V_v2 (c : Dev nD) : (V m c main_v2 : S16384x8x32.Idx → Elt Ideal .f32)
    = shapeCast S16384x8x32 (m ((c.tc : Thread nD τ).loc main_arg2)) shapeCasts_S1024x16x8x32_S16384x8x32 := by
  show StableHlo.after hostOps0 (fun b => m (c, b)) (Proc.devRef .tc main_v2) = _
  after_results; rfl

theorem V_v4 (c : Dev nD) : (V m c main_v4 : S16384x8x8.Idx → Elt Ideal .i32)
    = extui 32 (shapeCast S16384x8x8 (m ((c.tc : Thread nD τ).loc main_arg3)) shapeCasts_S1024x16x8x8_S16384x8x8) natLt_1_32 := by
  show StableHlo.after hostOps0 (fun b => m (c, b)) (Proc.devRef .tc main_v4) = _
  after_results; rfl

theorem V_v6 (c : Dev nD) : (V m c main_v6 : S16384x8x32.Idx → Elt Ideal .f32)
    = shapeCast S16384x8x32 (shapeCast S1024x16x8x32 (m ((c.tc : Thread nD τ).loc main_arg4)) shapeCasts_S1024x4096_S1024x16x8x32)
        shapeCasts_S1024x16x8x32_S16384x8x32 := by
  show StableHlo.after hostOps0 (fun b => m (c, b)) (Proc.devRef .tc main_v6) = _
  after_results; rfl

/-! ## The results, after the recasts that follow the region -/

theorem tail_v8 (c : Dev nD) :
    Pipeline.afterTail₀ cfgs (dats m) 0 (V0 m) [hostOps1] c main_v8
      = shapeCast S1024x16x8x32 ((dats m 0 c).arrAt 5 cfg0.N) shapeCasts_S16384x8x32_S1024x16x8x32 := by
  unfold Pipeline.afterTail₀
  show StableHlo.after hostOps1 _ (Proc.devRef .tc main_v8) = _
  after_results
  exact congrArg (fun x => shapeCast S1024x16x8x32 x shapeCasts_S16384x8x32_S1024x16x8x32)
    (Pipeline.withArrays_arr spec0 launch0.win.arr_inj c _ _ 5)

theorem tail_v9 (c : Dev nD) :
    Pipeline.afterTail₀ cfgs (dats m) 0 (V0 m) [hostOps1] c main_v9
      = shapeCast S1024x16x8x8 ((dats m 0 c).arrAt 6 cfg0.N) shapeCasts_S16384x8x8_S1024x16x8x8 := by
  unfold Pipeline.afterTail₀
  show StableHlo.after hostOps1 _ (Proc.devRef .tc main_v9) = _
  after_results
  exact congrArg (fun x => shapeCast S1024x16x8x8 x shapeCasts_S16384x8x8_S1024x16x8x8)
    (Pipeline.withArrays_arr spec0 launch0.win.arr_inj c _ _ 6)

/-- The context result is the four-dimensional context of the arguments. -/
theorem res_v8 (c : Dev nD) :
    Pipeline.afterTail₀ cfgs (dats m) 0 (V0 m) [hostOps1] c main_v8
      = Cert.Attn.C4 (m ((c.tc : Thread nD τ).loc main_arg0)) (m ((c.tc : Thread nD τ).loc main_arg1))
          (m ((c.tc : Thread nD τ).loc main_arg2)) (m ((c.tc : Thread nD τ).loc main_arg3))
          (shapeCast S1024x16x8x32 (m ((c.tc : Thread nD τ).loc main_arg4)) shapeCasts_S1024x4096_S1024x16x8x32) := by
  rw [tail_v8, final5, V_v0, V_v1, V_v2, V_v4, V_v6]
  exact Cert.Attn.unflat_C3 _ _ _ _ _ _ _ _ _

/-- The weights result is the four-dimensional weights of the arguments. -/
theorem res_v9 (c : Dev nD) :
    Pipeline.afterTail₀ cfgs (dats m) 0 (V0 m) [hostOps1] c main_v9
      = Cert.Attn.W4 (m ((c.tc : Thread nD τ).loc main_arg0)) (m ((c.tc : Thread nD τ).loc main_arg1))
          (m ((c.tc : Thread nD τ).loc main_arg3)) := by
  rw [tail_v9, final6, V_v0, V_v1, V_v4]
  exact Cert.Attn.unflat_W3 _ _ _ _ _ _ _

/-! ## The run -/

/-- Every weakly fair execution of the idealized kernel terminates with the context and the weights of its
    arguments in its two results, the arguments unchanged. -/
theorem run : θ_run defs (onTc (τ := τ) (main (F := Ideal))) ⟨m, fun _ => 0, ρ⟩ fun r => ∀ c : Dev nD,
      r.2.mem ((c.tc : Thread nD τ).loc main_v8)
        = Cert.Attn.C4 (m ((c.tc : Thread nD τ).loc main_arg0)) (m ((c.tc : Thread nD τ).loc main_arg1))
            (m ((c.tc : Thread nD τ).loc main_arg2)) (m ((c.tc : Thread nD τ).loc main_arg3))
            (shapeCast S1024x16x8x32 (m ((c.tc : Thread nD τ).loc main_arg4)) shapeCasts_S1024x4096_S1024x16x8x32)
      ∧ r.2.mem ((c.tc : Thread nD τ).loc main_v9)
        = Cert.Attn.W4 (m ((c.tc : Thread nD τ).loc main_arg0)) (m ((c.tc : Thread nD τ).loc main_arg1))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v8 (Pipeline.mem_restRefs_of main_v8 (by decide) (by decide))).trans (res_v8 m c),
       ((h c).2 main_v9 (Pipeline.mem_restRefs_of main_v9 (by decide) (by decide))).trans (res_v9 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.KV

end
-- ==== Proof.RefValue.lean ====
/-
  The reference program read at one (batch, head) pair. Each stage of the reference (the scaled and masked
  scores, the row maximum, the shifted exponentials, their row sum, the quotient, and the product with the value
  rows times the post-scale) is identified, at an index written by its coordinates, with the corresponding
  function of the one attention problem whose query rows, key rows, mask bits and value rows are the arrays'
  sections at that pair.
-/
import proofs.«118545_j31215822307973_2_alg».proof.Proof.Gen.ReferenceIdeal.Read
import proofs.«118545_j31215822307973_2_alg».proof.Proof.Spec
import Idealize.ShloMosaic.Lib.ValueIdx
import Idealize.ShloMosaic.Lib.Pipeline.Value
import Idealize.ShloMosaic.PureOps.Ideal.Laws
noncomputable section
open scoped BigOperators
namespace Cert.ReferenceIdeal.RefValue
open Cert.ReferenceIdeal Cert.ReferenceIdeal.Gen Cert.ReferenceIdeal.Read Idealize.ShloMosaic Idealize.ShloMosaic.ValueIdx

/-! ## The index maps of the stages, at an index given by its coordinates -/

/-- The first product's left operand is read at query row i, feature k. -/
theorem lidx_v0 (b : Fin 1024) (h : Fin 16) (i j : Fin 8) (k : Fin 32) :
    lidx_main_v0 (ix4 b h i j) k = ix4 b h i k :=
  funext fun a => Fin.ext (by match a with | ⟨0, _⟩ => rfl | ⟨1, _⟩ => rfl | ⟨2, _⟩ => rfl | ⟨3, _⟩ => rfl)

/-- The first product's right operand is read at key row j, feature k. -/
theorem ridx_v0 (b : Fin 1024) (h : Fin 16) (i j : Fin 8) (k : Fin 32) :
    ridx_main_v0 (ix4 b h i j) k = ix4 b h j k :=
  funext fun a => Fin.ext (by match a with | ⟨0, _⟩ => rfl | ⟨1, _⟩ => rfl | ⟨2, _⟩ => rfl | ⟨3, _⟩ => rfl)

/-- The row maximum is broadcast back along the key axis: entry (b, h, i, j) reads row (b, h, i). -/
theorem idx_v7_v8 (b : Fin 1024) (h : Fin 16) (i j : Fin 8) :
    idx_main_v7 (idx_main_v8 (ix4 b h i j)) = ix3 b h i :=
  funext fun a => Fin.ext (by match a with | ⟨0, _⟩ => rfl | ⟨1, _⟩ => rfl | ⟨2, _⟩ => rfl)

/-- The row sum reads the row's entry k. -/
theorem idx_v11 (b : Fin 1024) (h : Fin 16) (i k : Fin 8) :
    idx_main_v11 (ix3 b h i) k = ix4 b h i k :=
  funext fun a => Fin.ext (by match a with | ⟨0, _⟩ => rfl | ⟨1, _⟩ => rfl | ⟨2, _⟩ => rfl | ⟨3, _⟩ => rfl)

/-- The row sum is broadcast back along the key axis: entry (b, h, i, j) reads row (b, h, i). -/
theorem idx_v12_v13 (b : Fin 1024) (h : Fin 16) (i j : Fin 8) :
    idx_main_v12 (idx_main_v13 (ix4 b h i j)) = ix3 b h i :=
  funext fun a => Fin.ext (by match a with | ⟨0, _⟩ => rfl | ⟨1, _⟩ => rfl | ⟨2, _⟩ => rfl)

/-- The second product's left operand is read at the weight of query i on key k. -/
theorem lidx_v15 (b : Fin 1024) (h : Fin 16) (i : Fin 8) (d : Fin 32) (k : Fin 8) :
    lidx_main_v15 (ix4 b h i d) k = ix4 b h i k :=
  funext fun a => Fin.ext (by match a with | ⟨0, _⟩ => rfl | ⟨1, _⟩ => rfl | ⟨2, _⟩ => rfl | ⟨3, _⟩ => rfl)

/-- The second product's right operand is read at value row k, feature d. -/
theorem ridx_v15 (b : Fin 1024) (h : Fin 16) (i : Fin 8) (d : Fin 32) (k : Fin 8) :
    ridx_main_v15 (ix4 b h i d) k = ix4 b h k d :=
  funext fun a => Fin.ext (by match a with | ⟨0, _⟩ => rfl | ⟨1, _⟩ => rfl | ⟨2, _⟩ => rfl | ⟨3, _⟩ => rfl)

/-- Row (b, h, i) with the coordinate k inserted on the reduced (last) axis is the entry (b, h, i, k). -/
theorem lift_row (hR : Shape.Reduces S1024x16x8x8 [3] S1024x16x8) (b : Fin 1024) (h : Fin 16) (i : Fin 8) (k : Fin 8) :
    hR.lift (ix3 b h i) k = ix4 b h i k :=
  funext fun a => Fin.ext (by match a with | ⟨0, _⟩ => rfl | ⟨1, _⟩ => rfl | ⟨2, _⟩ => rfl | ⟨3, _⟩ => rfl)

/-! ## The stages -/

/-- The masked, scaled inner products are the problem's scores. -/
theorem ref_score (Q K : (⟨S1024x16x8x32, .f32⟩ : BufTy).Contents (Elt Ideal)) (M : (⟨S1024x16x8x8, .i1⟩ : BufTy).Contents (Elt Ideal))
    (b : Fin 1024) (h : Fin 16) (i j : Fin 8) :
    val_main_v3 (F := Ideal) Q K M (ix4 b h i j)
      = Cert.Attn.score (fun i d => Q (ix4 b h i d)) (fun j d => K (ix4 b h j d)) (fun i j => M (ix4 b h i j)) i j := by
  rw [val_main_v3_apply, val_main_call0_v0_apply, val_main_cst_0_apply, val_main_v2_apply, val_main_v0_apply,
    val_main_v1_apply, val_main_cst_apply]
  simp only [lidx_v0, ridx_v0]
  rfl

/-- The fold of the maximum along the key axis, from the lower infinity, is the row's maximum. -/
theorem ref_fold (Q K : (⟨S1024x16x8x32, .f32⟩ : BufTy).Contents (Elt Ideal)) (M : (⟨S1024x16x8x8, .i1⟩ : BufTy).Contents (Elt Ideal))
    (b : Fin 1024) (h : Fin 16) (i : Fin 8) :
    val_main_v4 (F := Ideal) Q K M (ix3 b h i)
      = Cert.Attn.rowMax (Cert.Attn.score (fun i d => Q (ix4 b h i d)) (fun j d => K (ix4 b h j d)) (fun i j => M (ix4 b h i j)) i) := by
  have hR : Shape.Reduces S1024x16x8x8 [3] S1024x16x8 := by decide
  unfold val_main_v4
  refine (Host.reduce_eq_fold_single (FloatOps.maximumf (F := Ideal) (φ := .f32)) _ _ _ hR h_S_ (ix3 b h i)).trans ?_
  unfold Cert.Attn.rowMax
  exact Finset.fold_congr (fun k _ =>
    (congrArg (val_main_v3 (F := Ideal) Q K M) (lift_row hR b h i k)).trans (ref_score Q K M b h i k))

/-- The maximum of the lower infinity and that fold is still the row's maximum. -/
theorem ref_rowMax (Q K : (⟨S1024x16x8x32, .f32⟩ : BufTy).Contents (Elt Ideal)) (M : (⟨S1024x16x8x8, .i1⟩ : BufTy).Contents (Elt Ideal))
    (b : Fin 1024) (h : Fin 16) (i : Fin 8) :
    val_main_v6 (F := Ideal) Q K M (ix3 b h i)
      = Cert.Attn.rowMax (Cert.Attn.score (fun i d => Q (ix4 b h i d)) (fun j d => K (ix4 b h j d)) (fun i j => M (ix4 b h i j)) i) := by
  rw [val_main_v6_apply, val_main_v5_apply, val_main_cst_2_apply, ref_fold]
  exact Cert.Attn.max_negInf_rowMax _

/-- A score less its row's maximum, exponentiated. -/
theorem ref_expo (Q K : (⟨S1024x16x8x32, .f32⟩ : BufTy).Contents (Elt Ideal)) (M : (⟨S1024x16x8x8, .i1⟩ : BufTy).Contents (Elt Ideal))
    (b : Fin 1024) (h : Fin 16) (i j : Fin 8) :
    val_main_v10 (F := Ideal) Q K M (ix4 b h i j)
      = Cert.Attn.expo (Cert.Attn.score (fun i d => Q (ix4 b h i d)) (fun j d => K (ix4 b h j d)) (fun i j => M (ix4 b h i j)) i) j := by
  rw [val_main_v10_apply, val_main_v9_apply, val_main_v8_apply, val_main_v7_apply, idx_v7_v8, ref_score, ref_rowMax]
  rfl

/-- The row's sum of exponentials: the sum starts from the word of zero. -/
theorem ref_sum (Q K : (⟨S1024x16x8x32, .f32⟩ : BufTy).Contents (Elt Ideal)) (M : (⟨S1024x16x8x8, .i1⟩ : BufTy).Contents (Elt Ideal))
    (b : Fin 1024) (h : Fin 16) (i : Fin 8) :
    val_main_v11 (F := Ideal) Q K M (ix3 b h i)
      = ∑ k : Fin 8, Cert.Attn.expo (Cert.Attn.score (fun i d => Q (ix4 b h i d)) (fun j d => K (ix4 b h j d)) (fun i j => M (ix4 b h i j)) i) k := by
  rw [val_main_v11_apply, val_main_cst_3_apply, Ideal.ofBits_def, Ideal.ofBits_zero_f32, zero_add]
  exact Finset.sum_congr rfl fun k _ => by rw [idx_v11, ref_expo]

/-- The quotient of an exponential by its row's sum is the attention weight. -/
theorem ref_weights (Q K : (⟨S1024x16x8x32, .f32⟩ : BufTy).Contents (Elt Ideal)) (M : (⟨S1024x16x8x8, .i1⟩ : BufTy).Contents (Elt Ideal))
    (b : Fin 1024) (h : Fin 16) (i j : Fin 8) :
    val_main_v14 (F := Ideal) Q K M (ix4 b h i j)
      = Cert.Attn.weights (fun i d => Q (ix4 b h i d)) (fun j d => K (ix4 b h j d)) (fun i j => M (ix4 b h i j)) i j := by
  rw [val_main_v14_apply, val_main_v13_apply, val_main_v12_apply, idx_v12_v13, ref_expo, ref_sum]
  rfl

/-- The weights' product with the value rows, times the post-scale entry, is the context. -/
theorem ref_context (Q K V : (⟨S1024x16x8x32, .f32⟩ : BufTy).Contents (Elt Ideal)) (M : (⟨S1024x16x8x8, .i1⟩ : BufTy).Contents (Elt Ideal))
    (H : (⟨S1024x4096, .f32⟩ : BufTy).Contents (Elt Ideal)) (b : Fin 1024) (h : Fin 16) (i : Fin 8) (d : Fin 32) :
    val_main_v17 (F := Ideal) Q K V M H (ix4 b h i d)
      = Cert.Attn.context (fun i d => Q (ix4 b h i d)) (fun j d => K (ix4 b h j d)) (fun i j => M (ix4 b h i j))
          (fun j d => V (ix4 b h j d)) (fun i d => val_main_v16 (F := Ideal) H (ix4 b h i d)) i d := by
  rw [val_main_v17_apply, val_main_v15_apply]
  unfold Cert.Attn.context
  refine congrArg (· * val_main_v16 (F := Ideal) H (ix4 b h i d)) (Finset.sum_congr rfl fun k _ => ?_)
  rw [lidx_v15, ridx_v15, ref_weights]

end Cert.ReferenceIdeal.RefValue

end
-- ==== Proof.RefWhole.lean ====
/-
  The reference's two results as whole arrays: entry by entry they are the four-dimensional weights and context of
  its arguments, the post-scale being the second argument array recast to [1024, 16, 8, 32].
-/
import proofs.«118545_j31215822307973_2_alg».proof.Proof.RefValue
import proofs.«118545_j31215822307973_2_alg».proof.Proof.Whole

noncomputable section

namespace Cert.ReferenceIdeal.RefValue

open Cert.ReferenceIdeal Cert.ReferenceIdeal.Gen Cert.ReferenceIdeal.Read Idealize.ShloMosaic Idealize.ShloMosaic.ValueIdx

/-- The reference's weights array is the four-dimensional weights of its arguments. -/
theorem ref_W4 (Q K : (⟨S1024x16x8x32, .f32⟩ : BufTy).Contents (Elt Ideal)) (M : (⟨S1024x16x8x8, .i1⟩ : BufTy).Contents (Elt Ideal)) :
    val_main_v14 (F := Ideal) Q K M = Cert.Attn.W4 Q K M := by
  funext y
  obtain ⟨b, h, i, j, rfl⟩ : ∃ (b : Fin 1024) (h : Fin 16) (i j : Fin 8), y = ix4 b h i j := ⟨y 0, y 1, y 2, y 3, eq_ix4 y⟩
  exact (ref_weights Q K M b h i j).trans (Cert.Attn.W4_ix4 Q K M b h i j).symm

/-- The reference's context array is the four-dimensional context of its arguments. -/
theorem ref_C4 (Q K V : (⟨S1024x16x8x32, .f32⟩ : BufTy).Contents (Elt Ideal)) (M : (⟨S1024x16x8x8, .i1⟩ : BufTy).Contents (Elt Ideal))
    (H : (⟨S1024x4096, .f32⟩ : BufTy).Contents (Elt Ideal)) :
    val_main_v17 (F := Ideal) Q K V M H = Cert.Attn.C4 Q K V M (val_main_v16 (F := Ideal) H) := by
  funext y
  obtain ⟨b, h, i, d, rfl⟩ : ∃ (b : Fin 1024) (h : Fin 16) (i : Fin 8) (d : Fin 32), y = ix4 b h i d := ⟨y 0, y 1, y 2, y 3, eq_ix4 y⟩
  exact (ref_context Q K V M H b h i d).trans (Cert.Attn.C4_ix4 Q K V M (val_main_v16 (F := Ideal) H) b h i d).symm

end Cert.ReferenceIdeal.RefValue

end
-- ==== Proof.lean ====
/-
  Masked scaled-dot-product attention with a pointwise post-scale, over 1024 × 16 (batch, head) pairs of eight
  queries and keys with thirty-two features: the kernel against its reference, on the extended reals.

  Both programs compute, for each pair, the same function of that pair's rows (Proof/Spec.lean): scores are the
  inner products of query and key rows times one f32 scale, masked entries replaced by one finite fill (the same two
  words on both sides); each row of scores is shifted by its maximum, exponentiated and divided by its sum; the
  context is the weights' product with the value rows, times the post-scale entry. The kernel works on the arrays
  flattened to 16384 problems, in 32 blocks of 512, and recasts its two outputs back to four dimensions; the
  reference works on the four-dimensional arrays. On the extended reals rounding to a narrower format is the identity,
  a product into a zero accumulator is the plain sum, a row's maximum or sum does not depend on the order it is
  taken in, and the reference's extra maximum with the lower infinity changes nothing, so the two are one function
  and the equality needs no finiteness of the inputs: the precondition is never opened.

  The three frames are the generated ones (the reference's is its generated run with the results dropped); the
  ideal pass rewrote nothing, so `preserves` is `True`.
-/
import proofs.«118545_j31215822307973_2_alg».proof.Defs
import proofs.«118545_j31215822307973_2_alg».proof.Proof.Gen.Kernel
import proofs.«118545_j31215822307973_2_alg».proof.Proof.Gen.Kernel.Frame
import proofs.«118545_j31215822307973_2_alg».proof.Proof.Gen.KernelIdeal
import proofs.«118545_j31215822307973_2_alg».proof.Proof.Gen.KernelIdeal.Frame
import proofs.«118545_j31215822307973_2_alg».proof.Proof.Gen.ReferenceIdeal
import proofs.«118545_j31215822307973_2_alg».proof.Proof.Gen.ReferenceIdeal.Run
import proofs.«118545_j31215822307973_2_alg».proof.Proof.Gen.ReferenceIdeal.Read
import proofs.«118545_j31215822307973_2_alg».proof.Proof.Gen.Pre_finite_inputs
import proofs.«118545_j31215822307973_2_alg».proof.Proof.KernelRun
import proofs.«118545_j31215822307973_2_alg».proof.Proof.RefWhole
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments, the kernel ends with the four-dimensional context and weights of its
    arguments in its results, and the reference with the same two functions of the same arrays. -/
theorem algebraic : Cert.algebraic_KernelIdeal_ReferenceIdeal := by
  intro m ρ m' ρ' _ hagree
  refine ⟨_, _, Cert.KernelIdeal.KV.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.ReferenceIdeal.RefValue.ref_C4, (hagree c).1, (hagree c).2.1,
      (hagree c).2.2.1, (hagree c).2.2.2.1, (hagree c).2.2.2.2]
    rfl
  · rw [Cert.ReferenceIdeal.Read.val_main_v14_eq, Cert.ReferenceIdeal.RefValue.ref_W4, (hagree c).1, (hagree c).2.1,
      (hagree c).2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
